-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S64x512 : Shape := ⟨2, ![64, 512]⟩
abbrev S64 : Shape := ⟨1, ![64]⟩
abbrev S3200000 : Shape := ⟨1, ![3200000]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S64x512 : S_.BroadcastsInDim S64x512 (![] : Fin 0 → Fin S64x512.rank)
  reducesTo_S64x512_S_d0_1 : S64x512.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x512 .f32) (main_arg1 : FVec F S64x512 .f32) (main_arg2 : FVec F S64 .f32) (main_arg3 : IVec S3200000 32) (main_arg4 : IVec S3200000 32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S64x512 .f32 := Host.absf main_arg1
  let main_cst_0 : FVec F S_ .f32 := constant S_ .f32 0x7F800000#32
  let main_v5 : FVec F S64x512 .f32 := broadcastInDim S64x512 ![] bcast_S_S64x512 main_cst_0
  let main_v6 : IVec S64x512 1 := cmpf .olt main_v4 main_v5
  let main_c_1 : IVec S_ 1 := constantI S_ 1 1#1
  let main_v7 : IVec S_ 1 := (fun x v => Host.reduce IntOp.andi x v reducesTo_S64x512_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x512 : Shape := ⟨2, ![100000, 512]⟩
abbrev S64x512 : Shape := ⟨2, ![64, 512]⟩
abbrev S64 : Shape := ⟨1, ![64]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S1x64 : Shape := ⟨2, ![1, 64]⟩
abbrev S100000x1 : Shape := ⟨2, ![100000, 1]⟩
abbrev S100000x64 : Shape := ⟨2, ![100000, 64]⟩
abbrev S4000x512 : Shape := ⟨2, ![4000, 512]⟩
abbrev S4000x1 : Shape := ⟨2, ![4000, 1]⟩
abbrev S4000x64 : Shape := ⟨2, ![4000, 64]⟩
abbrev S3200000x64 : Shape := ⟨2, ![3200000, 64]⟩
abbrev S2000x64 : Shape := ⟨2, ![2000, 64]⟩
abbrev S2000x1 : Shape := ⟨2, ![2000, 1]⟩

abbrev nBuf : Space → Nat
  | .hbm => 44
  | .vmem => 18
  | .smem => 0
  | _ => 0

abbrev bufTy : (tb : Table) → Fin (tcTables nBuf tb) → BufTy
  | .hbm, ⟨0, _⟩ => ⟨S100000x512, .f32⟩
  | .hbm, ⟨1, _⟩ => ⟨S64x512, .f32⟩
  | .hbm, ⟨2, _⟩ => ⟨S64, .f32⟩
  | .hbm, ⟨3, _⟩ => ⟨S3200000, .i32⟩
  | .hbm, ⟨4, _⟩ => ⟨S3200000, .i32⟩
  | .hbm, ⟨5, _⟩ => ⟨S_, .f32⟩
  | .hbm, ⟨6, _⟩ => ⟨S3200000, .f32⟩
  | .hbm, ⟨7, _⟩ => ⟨S_, .f32⟩
  | .hbm, ⟨8, _⟩ => ⟨S100000, .f32⟩
  | .hbm, ⟨9, _⟩ => ⟨S3200000x1, .i32⟩
  | .hbm, ⟨10, _⟩ => ⟨S100000, .f32⟩
  | .hbm, ⟨11, _⟩ => ⟨S_, .f32⟩
  | .hbm, ⟨12, _⟩ => ⟨S100000, .f32⟩
  | .hbm, ⟨13, _⟩ => ⟨S3200000x1, .i32⟩
  | .hbm, ⟨14, _⟩ => ⟨S100000, .f32⟩
  | .hbm, ⟨15, _⟩ => ⟨S_, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S1x64, .f32⟩
  | .hbm, ⟨26, _⟩ => ⟨S100000x1, .f32⟩
  | .hbm, ⟨27, _⟩ => ⟨S100000x64, .f32⟩
  | .hbm, ⟨28, _⟩ => ⟨S100000x64, .f32⟩
  | .hbm, ⟨29, _⟩ => ⟨S_, .i32⟩
  | .hbm, ⟨30, _⟩ => ⟨S3200000, .i32⟩
  | .hbm, ⟨31, _⟩ => ⟨S3200000, .i1⟩
  | .hbm, ⟨32, _⟩ => ⟨S_, .i32⟩
  | .hbm, ⟨33, _⟩ => ⟨S3200000, .i32⟩
  | .hbm, ⟨34, _⟩ => ⟨S3200000, .i32⟩
  | .hbm, ⟨35, _⟩ => ⟨S3200000, .i32⟩
  | .hbm, ⟨36, _⟩ => ⟨S3200000x1, .i32⟩
  | .hbm, ⟨37, _⟩ => ⟨S3200000x64, .f32⟩
  | .hbm, ⟨38, _⟩ => ⟨S_, .f32⟩
  | .hbm, ⟨39, _⟩ => ⟨S100000x64, .f32⟩
  | .hbm, ⟨40, _⟩ => ⟨S3200000x1, .i32⟩
  | .hbm, ⟨41, _⟩ => ⟨S100000x64, .f32⟩
  | .hbm, ⟨42, _⟩ => ⟨S100000x1, .f32⟩
  | .hbm, ⟨43, _⟩ => ⟨S100000x64, .f32⟩
  | .local _ .vmem, ⟨0, _⟩ => ⟨S4000x512, .f32⟩
  | .local _ .vmem, ⟨1, _⟩ => ⟨S4000x512, .f32⟩
  | .local _ .vmem, ⟨2, _⟩ => ⟨S64x512, .f32⟩
  | .local _ .vmem, ⟨3, _⟩ => ⟨S1x64, .f32⟩
  | .local _ .vmem, ⟨4, _⟩ => ⟨S4000x1, .f32⟩
  | .local _ .vmem, ⟨5, _⟩ => ⟨S4000x1, .f32⟩
  | .local _ .vmem, ⟨6, _⟩ => ⟨S4000x64, .f32⟩
  | .local _ .vmem, ⟨7, _⟩ => ⟨S4000x64, .f32⟩
  | .local _ .vmem, ⟨8, _⟩ => ⟨S4000x64, .f32⟩
  | .local _ .vmem, ⟨9, _⟩ => ⟨S4000x64, .f32⟩
  | .local _ .vmem, ⟨10, _⟩ => ⟨S2000x64, .f32⟩
  | .local _ .vmem, ⟨11, _⟩ => ⟨S2000x64, .f32⟩
  | .local _ .vmem, ⟨12, _⟩ => ⟨S2000x1, .f32⟩
  | .local _ .vmem, ⟨13, _⟩ => ⟨S2000x1, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S2000x64, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_call0_v0 : Ref sig .tc := ⟨.hbm, 16, rfl⟩
abbrev main_call0_v1 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_call1_v0 : Ref sig .tc := ⟨.hbm, 21, rfl⟩
abbrev main_call1_v1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13_0 : Ref sig .tc := ⟨.hbm, 27, rfl⟩
abbrev main_v13_1 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_5 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  shapeCasts_S64_S1x64 : S64.ShapeCasts S1x64
  shapeCasts_S100000_S100000x1 : S100000.ShapeCasts S100000x1
  inb_S4000x512_S4000x512_0_0 : ∀ a, (![0, 0] : Fin 2 → Nat) a + S4000x512.size a ≤ S4000x512.size a
  h_S4000x512 : 0 < S4000x512.numel
  bitsLt_bf16_f32 : FTy.bits .bf16 < FTy.bits .f32
  inb_S64x512_S64x512_0_0 : ∀ a, (![0, 0] : Fin 2 → Nat) a + S64x512.size a ≤ S64x512.size a
  h_S64x512 : 0 < S64x512.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  bcast_S_S100000x64 : S_.BroadcastsInDim S100000x64 (![] : Fin 0 → Fin S100000x64.rank)
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  scatter_S100000_S3200000x1_S3200000_n_0_0_1_wf : ScatterDims.WF S100000 S3200000x1 S3200000 [] [0] [0] 1
  dot_S4000x512_S64x512_S4000x64_1_1_0_0_n_n_wf : DotDims.WF S4000x512 S64x512 S4000x64 [1] [1] [0] [0] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x512.size a ≤ S64x512.size a
  hwx0_1 : ∀ i : grid0.Coords, EltTy.bits .f32 = 32 ∨ (Rect.block (s := S64x512) S64x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x1.size a ≤ S100000x1.size a
  hwx0_3 : ∀ i : grid0.Coords, EltTy.bits .f32 = 32 ∨ (Rect.block (s := S100000x1) S4000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x64.size a ≤ S100000x64.size a
  hwx0_4 : ∀ i : grid0.Coords, EltTy.bits .f32 = 32 ∨ (Rect.block (s := S100000x64) S4000x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x64.size a ≤ S100000x64.size a
  hwx0_5 : ∀ i : grid0.Coords, EltTy.bits .f32 = 32 ∨ (Rect.block (s := S100000x64) S4000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S100000x64.size a
  hwx1_2 : ∀ i : grid1.Coords, EltTy.bits .f32 = 32 ∨ (Rect.block (s := S100000x64) S2000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S100000x64.size a
  hwx1_3 : ∀ i : grid1.Coords, EltTy.bits .f32 = 32 ∨ (Rect.block (s := S100000x64) S2000x64.size (cc1_transform_3 i) (hinb1_3 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S4000x512_S64x512_S4000x64_1_1_0_0_n_n : DotDims S4000x512 S64x512 S4000x64 where
  lhsContracting := [1]
  rhsContracting := [1]
  lhsNonContracting := [0]
  rhsNonContracting := [0]
  lhsBatch := []
  rhsBatch := []
  wf := dot_S4000x512_S64x512_S4000x64_1_1_0_0_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S4000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v13_0) S4000x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v13_1) S4000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v23) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13_0) S2000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v25) S2000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x512 : Shape := ⟨2, ![100000, 512]⟩
abbrev S64x512 : Shape := ⟨2, ![64, 512]⟩
abbrev S64 : Shape := ⟨1, ![64]⟩
abbrev S3200000 : Shape := ⟨1, ![3200000]⟩
abbrev S512x64 : Shape := ⟨2, ![512, 64]⟩
abbrev S100000x64 : Shape := ⟨2, ![100000, 64]⟩
abbrev S1x64 : Shape := ⟨2, ![1, 64]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S3200000x64 : Shape := ⟨2, ![3200000, 64]⟩

abbrev nBuf : Space → Nat
  | .hbm => 56
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S64x512, .f32⟩
  | .hbm, ⟨2, _⟩ => ⟨S64, .f32⟩
  | .hbm, ⟨3, _⟩ => ⟨S3200000, .i32⟩
  | .hbm, ⟨4, _⟩ => ⟨S3200000, .i32⟩
  | .hbm, ⟨5, _⟩ => ⟨S512x64, .f32⟩
  | .hbm, ⟨6, _⟩ => ⟨S100000x64, .f32⟩
  | .hbm, ⟨7, _⟩ => ⟨S1x64, .f32⟩
  | .hbm, ⟨8, _⟩ => ⟨S100000x64, .f32⟩
  | .hbm, ⟨9, _⟩ => ⟨S100000x64, .f32⟩
  | .hbm, ⟨10, _⟩ => ⟨S_, .f32⟩
  | .hbm, ⟨11, _⟩ => ⟨S3200000, .f32⟩
  | .hbm, ⟨12, _⟩ => ⟨S_, .f32⟩
  | .hbm, ⟨13, _⟩ => ⟨S100000, .f32⟩
  | .hbm, ⟨14, _⟩ => ⟨S3200000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S3200000x1, .i32⟩
  | .hbm, ⟨19, _⟩ => ⟨S100000, .f32⟩
  | .hbm, ⟨20, _⟩ => ⟨S_, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S100000x64, .f32⟩
  | .hbm, ⟨32, _⟩ => ⟨S100000x64, .f32⟩
  | .hbm, ⟨33, _⟩ => ⟨S_, .i32⟩
  | .hbm, ⟨34, _⟩ => ⟨S3200000, .i32⟩
  | .hbm, ⟨35, _⟩ => ⟨S3200000, .i1⟩
  | .hbm, ⟨36, _⟩ => ⟨S_, .i32⟩
  | .hbm, ⟨37, _⟩ => ⟨S3200000, .i32⟩
  | .hbm, ⟨38, _⟩ => ⟨S3200000, .i32⟩
  | .hbm, ⟨39, _⟩ => ⟨S3200000, .i32⟩
  | .hbm, ⟨40, _⟩ => ⟨S3200000x1, .i32⟩
  | .hbm, ⟨41, _⟩ => ⟨S3200000x64, .f32⟩
  | .hbm, ⟨42, _⟩ => ⟨S_, .f32⟩
  | .hbm, ⟨43, _⟩ => ⟨S100000x64, .f32⟩
  | .hbm, ⟨44, _⟩ => ⟨S3200000x1, .i32⟩
  | .hbm, ⟨45, _⟩ => ⟨S100000x64, .f32⟩
  | .hbm, ⟨46, _⟩ => ⟨S100000x1, .f32⟩
  | .hbm, ⟨47, _⟩ => ⟨S100000x64, .f32⟩
  | .hbm, ⟨48, _⟩ => ⟨S100000x64, .f32⟩
  | .hbm, ⟨49, _⟩ => ⟨S_, .f32⟩
  | .hbm, ⟨50, _⟩ => ⟨S100000x64, .f32⟩
  | .hbm, ⟨51, _⟩ => ⟨S100000x64, .f32⟩
  | .hbm, ⟨52, _⟩ => ⟨S_, .f32⟩
  | .hbm, ⟨53, _⟩ => ⟨S100000x64, .f32⟩
  | .hbm, ⟨54, _⟩ => ⟨S100000x64, .f32⟩
  | .hbm, ⟨55, _⟩ => ⟨S100000x64, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_call1_v0 : Ref sig .tc := ⟨.hbm, 26, rfl⟩
abbrev main_call1_v1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩

abbrev nD : Nat := 1
abbrev τ : Topo := Topo.v7x

variable {F : FTy → Type} [FloatOps F]

class Facts₀ : Prop where
  transposes_S64x512_S512x64_1_0 : S64x512.Transposes [1, 0] S512x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  dot_S100000x512_S512x64_S100000x64_1_0_0_1_n_n_wf : DotDims.WF S100000x512 S512x64 S100000x64 [1] [0] [0] [1] [] []
  scatter_S100000_S3200000x1_S3200000_n_0_0_1_wf : ScatterDims.WF S100000 S3200000x1 S3200000 [] [0] [0] 1
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1

variable [Facts₀]

def dot_S100000x512_S512x64_S100000x64_1_0_0_1_n_n : DotDims S100000x512 S512x64 S100000x64 where
  lhsContracting := [1]
  rhsContracting := [0]
  lhsNonContracting := [0]
  rhsNonContracting := [1]
  lhsBatch := []
  rhsBatch := []
  wf := dot_S100000x512_S512x64_S100000x64_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf

class Facts : Prop extends Facts₀ where

variable [Facts]
-- ==== Proof.KernelRun.lean ====
/-
  The idealized kernel's run with its RESULT named.  The program is a chain of eight segments: five
  stretches of host operations (the two degree counts, their clamps and inverse square roots, two
  reshapes), the projection kernel's grid of 25 points, a stretch of host operations (the gather of
  scaled rows along the edges' sources, the sum into the edges' destinations), and the blend kernel's
  grid of 50 points.  The contents of every buffer at each boundary are a fold from the launch memory
  (`Gen.W0 … Gen.W8`); the run ends with every unscoped buffer at the last boundary's contents
  `Gen.W8`.  Here that final state is read at the result buffer as well as at the five arguments.
-/
import proofs.«118765_j29506425323819_2_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary's contents and the five argument arrays end as launched. -/
theorem run_result : θ_run defs (onTc (τ := τ) (main (F := F))) ⟨m, fun _ => 0, ρ⟩ (fun r => ∀ c : Dev nD,
      r.2.mem ((c.tc : Thread nD τ).loc main_v25) = W8 m ρ c (Proc.devRef .tc main_v25)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v25 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c)⟩)

end Cert.KernelIdeal.Whole

end
-- ==== Proof.HostSide.lean ====
/-
  What the host operations around the two kernels leave in the arrays the kernels read, over the extended reals.

  Before the projection kernel: the two argument arrays it reads are untouched; the bias is reshaped to one row;
  the source-side scale is the inverse square root of the clamped out-degree, reshaped to one column.  The degree of
  node n is the number of edges whose index entry is n (a sum of ones scattered along the index array), clamped
  below by one.  Between the kernels: the scaled projected rows are gathered along the edges' sources (a negative
  source counted from the end) and summed into the edges' destinations; the destination-side scale, computed like
  the source-side one from the destination array, is reshaped to one column; the projected features are untouched.
-/
import proofs.«118765_j29506425323819_2_alg».proof.Proof.Gen.KernelIdeal.Frame
import Idealize.ShloMosaic.Lib.StableHlo.Run
import Idealize.ShloMosaic.PureOps.Ideal

set_option maxRecDepth 16384

noncomputable section

namespace Cert.KernelIdeal.HostSide

open Idealize.ShloMosaic Idealize.ShloMosaic.TcCoe Idealize.SL.Sem Idealize.ShloMosaic.StableHlo
open Cert.KernelIdeal Cert.KernelIdeal.Gen

/-- The degree scale of an index array: node n's entry is the inverse square root of max(1, the number of edges whose
    index is n). -/
def degScale (ix : (⟨S3200000, .i32⟩ : BufTy).Contents (Elt Ideal)) : (⟨S100000, .f32⟩ : BufTy).Contents (Elt Ideal) :=
  Host.rsqrt (F := Ideal) (maximumf (broadcastInDim S100000 ![] bcast_S_S100000 (id (constant (F := Ideal) S_ .f32 0x3F800000#32)))
    (Host.scatterAdd (F := Ideal) scatter_S100000_S3200000x1_S3200000_n_0_0_1
      (broadcastInDim S100000 ![] bcast_S_S100000 (constant (F := Ideal) S_ .f32 0x00000000#32))
      (broadcastInDim S3200000x1 ![0] bcast_S3200000_S3200000x1_0 ix)
      (broadcastInDim S3200000 ![] bcast_S_S3200000 (constant (F := Ideal) S_ .f32 0x3F800000#32))))

/-- The edges' sources as the gather reads them: a negative entry has the number of nodes added. -/
def fromEnd (ix : (⟨S3200000, .i32⟩ : BufTy).Contents (Elt Ideal)) : (⟨S3200000, .i32⟩ : BufTy).Contents (Elt Ideal) :=
  select (cmpi CmpIPredicate.slt ix (broadcastInDim S3200000 ![] bcast_S_S3200000 (constantI S_ 32 0#32)))
    (addi ix (broadcastInDim S3200000 ![] bcast_S_S3200000 (constantI S_ 32 100000#32))) ix

/-- The aggregation: the rows of `hs` gathered along the edges' sources and summed into the edges' destinations. -/
def aggregate (hs : (⟨S100000x64, .f32⟩ : BufTy).Contents (Elt Ideal)) (src dst : (⟨S3200000, .i32⟩ : BufTy).Contents (Elt Ideal)) :
    (⟨S100000x64, .f32⟩ : BufTy).Contents (Elt Ideal) :=
  Host.scatterAdd (F := Ideal) scatter_S100000x64_S3200000x1_S3200000x64_1_0_0_1
    (broadcastInDim S100000x64 ![] bcast_S_S100000x64 (constant (F := Ideal) S_ .f32 0x00000000#32))
    (broadcastInDim S3200000x1 ![0] bcast_S3200000_S3200000x1_0 dst)
    (Host.gather gather_S100000x64_S3200000x1_S3200000x64_1_0_n_n_0_1_164 hs
      (broadcastInDim S3200000x1 ![0] bcast_S3200000_S3200000x1_0 (fromEnd src)))

/-! ## The stretches, one at a time, from ANY contents `V` of the buffers before the stretch -/

section Stretches
set_option maxHeartbeats 100000

variable (V : Valuation τ sig (Elt Ideal))

/-- Stretch one: the number of edges leaving each node. -/
theorem s1_outdeg : StableHlo.after hostOps0 V (Proc.devRef .tc main_v3)
    = Host.scatterAdd (F := Ideal) scatter_S100000_S3200000x1_S3200000_n_0_0_1
      (broadcastInDim S100000 ![] bcast_S_S100000 (constant (F := Ideal) S_ .f32 0x00000000#32))
      (broadcastInDim S3200000x1 ![0] bcast_S3200000_S3200000x1_0 (V (Proc.devRef .tc main_arg3)))
      (broadcastInDim S3200000 ![] bcast_S_S3200000 (constant (F := Ideal) S_ .f32 0x3F800000#32)) := by
  dsimp only [hostOps0]
  after_results

/-- Stretch one: the number of edges entering each node. -/
theorem s1_indeg : StableHlo.after hostOps0 V (Proc.devRef .tc main_v6)
    = Host.scatterAdd (F := Ideal) scatter_S100000_S3200000x1_S3200000_n_0_0_1
      (broadcastInDim S100000 ![] bcast_S_S100000 (constant (F := Ideal) S_ .f32 0x00000000#32))
      (broadcastInDim S3200000x1 ![0] bcast_S3200000_S3200000x1_0 (V (Proc.devRef .tc main_arg4)))
      (broadcastInDim S3200000 ![] bcast_S_S3200000 (constant (F := Ideal) S_ .f32 0x3F800000#32)) := by
  dsimp only [hostOps0]
  after_results

/-- Stretch one: the first clamp's lower bound. -/
theorem s1_one : StableHlo.after hostOps0 V (Proc.devRef .tc main_cst_2) = constant (F := Ideal) S_ .f32 0x3F800000#32 := by
  dsimp only [hostOps0]
  after_results

/-- Stretch two (the first clamp): the out-degree clamped below by one. -/
theorem s2_clamp : StableHlo.after hostOps0_1 V (Proc.devRef .tc main_v7)
    = maximumf (F := Ideal) (s := S100000) (φ := .f32) (broadcastInDim S100000 ![] bcast_S_S100000 (id (V (Proc.devRef .tc main_cst_2)))) (V (Proc.devRef .tc main_v3)) := by
  dsimp only [hostOps0_1]
  after_results
  generalize V (Proc.devRef .tc main_cst_2) = k
  generalize V (Proc.devRef .tc main_v3) = d
  rfl

theorem s2_indeg : StableHlo.after hostOps0_1 V (Proc.devRef .tc main_v6) = V (Proc.devRef .tc main_v6) := by
  dsimp only [hostOps0_1]
  after_results

/-- Stretch three: the source-side scale, and the second clamp's lower bound. -/
theorem s3_scale : StableHlo.after hostOps0_2 V (Proc.devRef .tc main_v8)
    = Host.rsqrt (F := Ideal) (s := S100000) (φ := .f32) (V (Proc.devRef .tc main_v7)) := by
  dsimp only [hostOps0_2]
  after_results

theorem s3_one : StableHlo.after hostOps0_2 V (Proc.devRef .tc main_cst_3) = constant (F := Ideal) S_ .f32 0x3F800000#32 := by
  dsimp only [hostOps0_2]
  after_results

theorem s3_indeg : StableHlo.after hostOps0_2 V (Proc.devRef .tc main_v6) = V (Proc.devRef .tc main_v6) := by
  dsimp only [hostOps0_2]
  after_results

/-- Stretch four (the second clamp): the in-degree clamped below by one. -/
theorem s4_clamp : StableHlo.after hostOps0_3 V (Proc.devRef .tc main_v9)
    = maximumf (F := Ideal) (s := S100000) (φ := .f32) (broadcastInDim S100000 ![] bcast_S_S100000 (id (V (Proc.devRef .tc main_cst_3)))) (V (Proc.devRef .tc main_v6)) := by
  dsimp only [hostOps0_3]
  after_results
  generalize V (Proc.devRef .tc main_cst_3) = k
  generalize V (Proc.devRef .tc main_v6) = d
  rfl

theorem s4_scale : StableHlo.after hostOps0_3 V (Proc.devRef .tc main_v8) = V (Proc.devRef .tc main_v8) := by
  dsimp only [hostOps0_3]
  after_results

/-- Stretch five: the destination-side scale; the bias as one row; the source-side scale as one column. -/
theorem s5_scale_dst : StableHlo.after hostOps0_4 V (Proc.devRef .tc main_v10)
    = Host.rsqrt (F := Ideal) (s := S100000) (φ := .f32) (V (Proc.devRef .tc main_v9)) := by
  dsimp only [hostOps0_4]
  after_results

theorem s5_bias : StableHlo.after hostOps0_4 V (Proc.devRef .tc main_v11)
    = fun i => shapeCast S1x64 (V (Proc.devRef .tc main_arg2)) shapeCasts_S64_S1x64 i := by
  dsimp only [hostOps0_4]
  after_results
  generalize V (Proc.devRef .tc main_arg2) = b
  rfl

theorem s5_scale : StableHlo.after hostOps0_4 V (Proc.devRef .tc main_v12)
    = fun i => shapeCast S100000x1 (V (Proc.devRef .tc main_v8)) shapeCasts_S100000_S100000x1 i := by
  dsimp only [hostOps0_4]
  after_results
  generalize V (Proc.devRef .tc main_v8) = s
  rfl

set_option maxHeartbeats 800000 in
/-- Stretch six: the aggregated messages, of whatever the projection kernel left in its scaled output. -/
theorem s6_aggregate : StableHlo.after hostOps1 V (Proc.devRef .tc main_v23)
    = aggregate (V (Proc.devRef .tc main_v13_1)) (V (Proc.devRef .tc main_arg3)) (V (Proc.devRef .tc main_arg4)) := by
  dsimp only [hostOps1]
  after_results
  generalize V (Proc.devRef .tc main_v13_1) = hs
  generalize V (Proc.devRef .tc main_arg3) = src
  generalize V (Proc.devRef .tc main_arg4) = dst
  rfl

set_option maxHeartbeats 800000 in
/-- Stretch six: the destination-side scale as one column. -/
theorem s6_scale : StableHlo.after hostOps1 V (Proc.devRef .tc main_v24)
    = fun i => shapeCast S100000x1 (V (Proc.devRef .tc main_v10)) shapeCasts_S100000_S100000x1 i := by
  dsimp only [hostOps1]
  after_results
  generalize V (Proc.devRef .tc main_v10) = s
  rfl

set_option maxHeartbeats 800000 in
/-- Stretch six leaves the projected features untouched. -/
theorem s6_features : StableHlo.after hostOps1 V (Proc.devRef .tc main_v13_0) = V (Proc.devRef .tc main_v13_0) := by
  dsimp only [hostOps1]
  after_results

end Stretches

/-! ## The boundaries' contents, composed from the launch memory -/

section Boundaries
set_option maxHeartbeats 400000

variable (m : (ℓ : Loc nD τ sig) → Buf (Elt Ideal) ℓ) (ρ : Dev nD → PrngReg)

/-- The launch memory read at a buffer. -/
theorem launch_eq (c : Dev nD) (b : Ref sig .tc) : W0 m ρ c (Proc.devRef .tc b) = m ((c.tc : Thread nD τ).loc b) := rfl

/-! ### The argument arrays are untouched by the first five stretches -/

theorem entry_features (c : Dev nD) : W5 m ρ c (Proc.devRef .tc main_arg0) = m ((c.tc : Thread nD τ).loc main_arg0) := by
  dsimp only [W5, W4, W3, W2, W1, W0, hostOps0, hostOps0_1, hostOps0_2, hostOps0_3, hostOps0_4]
  after_results

theorem entry_weights (c : Dev nD) : W5 m ρ c (Proc.devRef .tc main_arg1) = m ((c.tc : Thread nD τ).loc main_arg1) := by
  dsimp only [W5, W4, W3, W2, W1, W0, hostOps0, hostOps0_1, hostOps0_2, hostOps0_3, hostOps0_4]
  after_results

theorem entry_sources (c : Dev nD) : W5 m ρ c (Proc.devRef .tc main_arg3) = m ((c.tc : Thread nD τ).loc main_arg3) := by
  dsimp only [W5, W4, W3, W2, W1, W0, hostOps0, hostOps0_1, hostOps0_2, hostOps0_3, hostOps0_4]
  after_results

theorem entry_destinations (c : Dev nD) : W5 m ρ c (Proc.devRef .tc main_arg4) = m ((c.tc : Thread nD τ).loc main_arg4) := by
  dsimp only [W5, W4, W3, W2, W1, W0, hostOps0, hostOps0_1, hostOps0_2, hostOps0_3, hostOps0_4]
  after_results

theorem fourth_bias (c : Dev nD) : W4 m ρ c (Proc.devRef .tc main_arg2) = m ((c.tc : Thread nD τ).loc main_arg2) := by
  dsimp only [W4, W3, W2, W1, W0, hostOps0, hostOps0_1, hostOps0_2, hostOps0_3]
  after_results

/-! ### The two degree scales -/

/-- The source-side scale after stretch four. -/
theorem fourth_scale_src (c : Dev nD) : W4 m ρ c (Proc.devRef .tc main_v8) = degScale (m ((c.tc : Thread nD τ).loc main_arg3)) := by
  dsimp only [W4]
  rw [s4_scale]
  dsimp only [W3]
  rw [s3_scale]
  dsimp only [W2]
  rw [s2_clamp]
  dsimp only [W1]
  rw [s1_one, s1_outdeg, launch_eq]
  rfl

/-- The destination-side scale after stretch five. -/
theorem entry_scale_dst (c : Dev nD) : W5 m ρ c (Proc.devRef .tc main_v10) = degScale (m ((c.tc : Thread nD τ).loc main_arg4)) := by
  dsimp only [W5]
  rw [s5_scale_dst]
  dsimp only [W4]
  rw [s4_clamp]
  dsimp only [W3]
  rw [s3_one, s3_indeg]
  dsimp only [W2]
  rw [s2_indeg]
  dsimp only [W1]
  rw [s1_indeg, launch_eq]
  rfl

/-! ### At the projection kernel's entry -/

/-- The bias as one row. -/
theorem entry_bias (c : Dev nD) : W5 m ρ c (Proc.devRef .tc main_v11)
    = fun i => shapeCast S1x64 (m ((c.tc : Thread nD τ).loc main_arg2)) shapeCasts_S64_S1x64 i := by
  dsimp only [W5]
  rw [s5_bias, fourth_bias]

/-- The source-side scale as one column. -/
theorem entry_scale (c : Dev nD) : W5 m ρ c (Proc.devRef .tc main_v12)
    = fun i => shapeCast S100000x1 (degScale (m ((c.tc : Thread nD τ).loc main_arg3))) shapeCasts_S100000_S100000x1 i := by
  dsimp only [W5]
  rw [s5_scale, fourth_scale_src]

/-! ### Between the kernels: the projection kernel changes only its two outputs -/

theorem mid_sources (c : Dev nD) : W6 m ρ c (Proc.devRef .tc main_arg3) = m ((c.tc : Thread nD τ).loc main_arg3) :=
  (W6_of_ne m ρ c main_arg3 (by decide)).trans (entry_sources m ρ c)

theorem mid_destinations (c : Dev nD) : W6 m ρ c (Proc.devRef .tc main_arg4) = m ((c.tc : Thread nD τ).loc main_arg4) :=
  (W6_of_ne m ρ c main_arg4 (by decide)).trans (entry_destinations m ρ c)

theorem mid_scale_dst (c : Dev nD) : W6 m ρ c (Proc.devRef .tc main_v10) = degScale (m ((c.tc : Thread nD τ).loc main_arg4)) :=
  (W6_of_ne m ρ c main_v10 (by decide)).trans (entry_scale_dst m ρ c)

/-! ### At the blend kernel's entry -/

/-- The aggregated messages, of whatever the projection kernel left in its scaled output. -/
theorem second_aggregate (c : Dev nD) : W7 m ρ c (Proc.devRef .tc main_v23)
    = aggregate (W6 m ρ c (Proc.devRef .tc main_v13_1)) (m ((c.tc : Thread nD τ).loc main_arg3)) (m ((c.tc : Thread nD τ).loc main_arg4)) := by
  dsimp only [W7]
  rw [s6_aggregate, mid_sources, mid_destinations]

/-- The destination-side scale as one column. -/
theorem second_scale (c : Dev nD) : W7 m ρ c (Proc.devRef .tc main_v24)
    = fun i => shapeCast S100000x1 (degScale (m ((c.tc : Thread nD τ).loc main_arg4))) shapeCasts_S100000_S100000x1 i := by
  dsimp only [W7]
  rw [s6_scale, mid_scale_dst]

/-- The projected features pass the last host stretch untouched. -/
theorem second_features (c : Dev nD) : W7 m ρ c (Proc.devRef .tc main_v13_0) = W6 m ρ c (Proc.devRef .tc main_v13_0) := by
  dsimp only [W7]
  rw [s6_features]

end Boundaries

end Cert.KernelIdeal.HostSide

end
-- ==== Proof.Payloads.lean ====
import proofs.«118765_j29506425323819_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

/-!
The values the two kernel bodies store, read one entry at a time over the extended reals.

The first body takes a block `x` of 4000 rows of length 512, the 64 weight rows `w` of length 512, the
bias row `b` and the column `s` of per-row scales. It stores first the affine image
`(x wᵀ + b)[p, q] = ∑ₖ x[p, k] · w[q, k] + b[0, q]` and then that image with row `p` scaled by `s[p, 0]`.
Over the extended reals the narrowing of the operands before the product is the identity, and a product
accumulated into the zero array is the plain sum over the contracted axis.

The second body blends two blocks: `0.8 · a[p, q] · t[p, 0] + 0.2 · c[p, q]`, the two weights kept as the
words that encode them.
-/

noncomputable section

namespace Cert.KernelIdeal.Payloads

open Idealize.ShloMosaic Idealize.ShloMosaic.ValueIdx Cert.KernelIdeal Cert.KernelIdeal.Gen
open scoped BigOperators

/-! ## A column repeated along the rows -/

/-- A column `[a, 1]` broadcast to `[a, b]` reads, at `(p, c)`, the column's entry in row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The product of rows with rows -/

/-- The product's dimension numbers: each operand contracts its axis 1 (of length 512) and keeps its axis 0,
    so entry `(p, q)` of the result pairs row `p` of the left operand with row `q` of the right one. -/
abbrev rowDot : DotDims S4000x512 S64x512 S4000x64 := dot_S4000x512_S64x512_S4000x64_1_1_0_0_n_n

/-- The left operand is read in the result's row … -/
theorem lhs_row (j : S4000x64.Idx) (c : rowDot.contr.Idx) : (rowDot.lhsIdx j c 0).val = (j 0).val := by
  unfold DotDims.lhsIdx
  rw [dif_neg (show ¬(0 : Fin S4000x512.rank) ∈ rowDot.lhsBatch by decide),
    dif_pos (show (0 : Fin S4000x512.rank) ∈ rowDot.lhsNonContracting by decide)]
  rfl
/-- … at the contraction's coordinate. -/
theorem lhs_contr (j : S4000x64.Idx) (c : rowDot.contr.Idx) : (rowDot.lhsIdx j c 1).val = (c ⟨0, by decide⟩).val :=
  rowDot.lhsIdx_val_of_single rfl j c
/-- The right operand is read in the row the result's column names … -/
theorem rhs_row (j : S4000x64.Idx) (c : rowDot.contr.Idx) : (rowDot.rhsIdx j c 0).val = (j 1).val := by
  unfold DotDims.rhsIdx
  rw [dif_neg (show ¬(0 : Fin S64x512.rank) ∈ rowDot.rhsBatch by decide),
    dif_pos (show (0 : Fin S64x512.rank) ∈ rowDot.rhsNonContracting by decide)]
  rfl
/-- … at the contraction's coordinate. -/
theorem rhs_contr (j : S4000x64.Idx) (c : rowDot.contr.Idx) : (rowDot.rhsIdx j c 1).val = (c ⟨0, by decide⟩).val :=
  rowDot.rhsIdx_val_of_single rfl j c

/-- The product accumulated into the zero array, at `(p, q)`: the sum over `k` of the left operand's row `p`
    times the right operand's row `q`. The contraction's one-axis index set is re-indexed by its coordinate. -/
theorem matmul_rows_apply (a : FVec Ideal S4000x512 .bf16) (b : FVec Ideal S64x512 .bf16) (p : Fin 4000) (q : Fin 64) :
    matmul rowDot none a b (constant S4000x64 .f32 0x00000000#32) (ix2 p q)
      = ∑ k : Fin 512, a (ix2 p k) * b (ix2 q k) := by
  refine (Ideal.matmul_constant_zero_apply rowDot none a b (ix2 p q)).trans ?_
  rw [← Equiv.sum_comp (contrEquiv1 rowDot 512 rfl rfl).symm]
  refine Finset.sum_congr rfl fun k _ => ?_
  have hk := contrEquiv1_symm_val rowDot 512 rfl rfl k
  have el : rowDot.lhsIdx (ix2 p q) ((contrEquiv1 rowDot 512 rfl rfl).symm k) = ix2 p k :=
    funext fun ax => Fin.ext (by
      match ax with
      | ⟨0, _⟩ => exact lhs_row _ _
      | ⟨1, _⟩ => exact (lhs_contr _ _).trans hk)
  have er : rowDot.rhsIdx (ix2 p q) ((contrEquiv1 rowDot 512 rfl rfl).symm k) = ix2 q k :=
    funext fun ax => Fin.ext (by
      match ax with
      | ⟨0, _⟩ => exact rhs_row _ _
      | ⟨1, _⟩ => exact (rhs_contr _ _).trans hk)
  rw [el, er]

/-! ## The stored values at an entry -/

/-- The affine image at `(p, q)`: row `p` of the block against weight row `q`, plus the bias at `q`. -/
theorem pay1_apply (v0 : Vec Ideal S4000x512 .f32) (v2 : Vec Ideal S64x512 .f32) (v5 : Vec Ideal S1x64 .f32)
    (p : Fin 4000) (q : Fin 64) :
    k0_pay1 (F := Ideal) v0 v2 v5 (ix2 p q)
      = (∑ k : Fin 512, v0 (ix2 p k) * v2 (ix2 q k)) + v5 (ix2 (0 : Fin 1) q) := by
  unfold k0_pay1
  refine (addf_apply _ _ (ix2 p q)).trans ?_
  refine congrArg₂ (· + ·) ?_ ?_
  · exact matmul_rows_apply _ _ p q
  · refine (broadcastTo_1b_ab_apply _ _ p q).trans ?_
    exact congrFun (shapeCast_self v5 _) _

/-- The scaled image at `(p, q)`: the affine image there times the scale of row `p`. -/
theorem pay2_apply (v0 : Vec Ideal S4000x512 .f32) (v2 : Vec Ideal S64x512 .f32) (v5 : Vec Ideal S1x64 .f32)
    (v10 : Vec Ideal S4000x1 .f32) (p : Fin 4000) (q : Fin 64) :
    k0_pay2 (F := Ideal) v0 v2 v5 v10 (ix2 p q)
      = k0_pay1 (F := Ideal) v0 v2 v5 (ix2 p q) * v10 (ix2 p (0 : Fin 1)) := by
  unfold k0_pay2
  refine (mulf_apply _ _ (ix2 p q)).trans ?_
  refine congrArg (k0_pay1 (F := Ideal) v0 v2 v5 (ix2 p q) * ·) ?_
  refine (broadcastTo_a1_ab_apply _ _ p q).trans ?_
  exact congrFun (shapeCast_self v10 _) _

/-- The blend at `(p, q)`: the first weight times the first block's entry times the scale of row `p`, plus the
    second weight times the second block's entry. -/
theorem blend_apply (v0 : Vec Ideal S2000x64 .f32) (v2 : Vec Ideal S2000x1 .f32) (v4 : Vec Ideal S2000x64 .f32)
    (p : Fin 2000) (q : Fin 64) :
    k1_pay1 (F := Ideal) v0 v2 v4 (ix2 p q)
      = Ideal.ofBits .f32 0x3F4CCCCD#32 * v0 (ix2 p q) * v2 (ix2 p (0 : Fin 1))
        + Ideal.ofBits .f32 0x3E4CCCCD#32 * v4 (ix2 p q) := by
  unfold k1_pay1
  refine (addf_apply _ _ (ix2 p q)).trans ?_
  refine congrArg₂ (· + ·) ?_ ?_
  · refine (mulf_apply _ _ (ix2 p q)).trans ?_
    refine congrArg₂ (· * ·) ?_ ?_
    · refine (mulf_apply _ _ (ix2 p q)).trans ?_
      exact congrArg (Ideal.ofBits .f32 0x3F4CCCCD#32 * ·) (congrFun (shapeCast_self v0 _) _)
    · refine (broadcastTo_a1_ab_apply _ _ p q).trans ?_
      exact congrFun (shapeCast_self v2 _) _
  · refine (mulf_apply _ _ (ix2 p q)).trans ?_
    exact congrArg (Ideal.ofBits .f32 0x3E4CCCCD#32 * ·) (congrFun (shapeCast_self v4 _) _)

end Cert.KernelIdeal.Payloads

end
-- ==== Proof.LinArray.lean ====
/-
  The projection kernel's two output arrays after its grid of 25 points, each as ONE function of the arrays
  the kernel reads.  Point t works on rows 4000 t … 4000 t + 3999 of the node features; every point reads the
  whole weight matrix and the whole one-row bias; the one-column array of source-side scales is read in the
  same rows.  The first output's block is the linear layer on those rows (`linOf`), the second the same with
  each row scaled (`linScaledOf`).  The blocks tile the 100000 rows, so each array ends holding its function.
-/
import proofs.«118765_j29506425323819_2_alg».proof.Proof.Gen.KernelIdeal.Frame
import proofs.«118765_j29506425323819_2_alg».proof.Proof.Payloads
import Idealize.ShloMosaic.Lib.Pipeline.Value
import Idealize.ShloMosaic.Lib.ValueIdx

set_option maxRecDepth 16384

noncomputable section

namespace Cert.KernelIdeal.LinArray

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Payloads

open scoped BigOperators

-- The contents of every buffer when the projection kernel is entered: a parameter.
variable (V : (c : Dev nD) → (b : Ref sig .tc) → Buf (Elt Ideal) ((c : Thread nD τ).loc b))

/-- The offsets of a load or store of a whole block. -/
theorem zeros : (![0, 0] : Fin 2 → Nat) = fun _ => 0 := funext fun a => by fin_cases a <;> rfl

/-- The linear layer as a function of whole arrays, the bias read as a one-row array. -/
def linOf (x : S100000x512.Idx → EReal) (w : S64x512.Idx → EReal) (b : S1x64.Idx → EReal) : S100000x64.Idx → EReal :=
  fun i => (∑ k : Fin 512, x (ix2 (i 0 : Fin 100000) k) * w (ix2 (i 1 : Fin 64) k)) + b (ix2 (0 : Fin 1) (i 1 : Fin 64))

/-- The linear layer with row n scaled by s[n, 0], the scale read as a one-column array. -/
def linScaledOf (x : S100000x512.Idx → EReal) (w : S64x512.Idx → EReal) (b : S1x64.Idx → EReal) (s : S100000x1.Idx → EReal) : S100000x64.Idx → EReal :=
  fun i => linOf x w b i * s (ix2 (i 0 : Fin 100000) (0 : Fin 1))

/-- At point t the row-blocked windows (features, scale, both outputs) are at block t along the rows; the weight and the
    bias windows are always at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- One entry of a projection block: if the block's row p is the array's row (i 0), the weight block's row q is the
    weight's row (i 1) and the bias block at q is the bias at (i 1), the block's entry (p, q) is the linear layer at i. -/
theorem lin_entry (X : S100000x512.Idx → EReal) (W : S64x512.Idx → EReal) (B : S1x64.Idx → EReal)
    (xb : S4000x512.Idx → EReal) (wb : S64x512.Idx → EReal) (bb : S1x64.Idx → EReal) (p : Fin 4000) (q : Fin 64) (i : S100000x64.Idx)
    (hx : ∀ k : Fin 512, xb (ix2 p k) = X (ix2 (i 0 : Fin 100000) k))
    (hw : ∀ k : Fin 512, wb (ix2 q k) = W (ix2 (i 1 : Fin 64) k))
    (hb : bb (ix2 (0 : Fin 1) q) = B (ix2 (0 : Fin 1) (i 1 : Fin 64))) :
    k0_pay1 (F := Ideal) xb wb bb (ix2 p q) = linOf X W B i := by
  refine (pay1_apply xb wb bb p q).trans ?_
  unfold linOf
  rw [hb]
  exact congrArg (· + B (ix2 (0 : Fin 1) (i 1 : Fin 64))) (Finset.sum_congr rfl fun k _ => by rw [hx k, hw k])

/-- The scaled block's entry (p, q) is the linear layer at i times the scale at row (i 0). -/
theorem scaled_entry (X : S100000x512.Idx → EReal) (W : S64x512.Idx → EReal) (B : S1x64.Idx → EReal) (S : S100000x1.Idx → EReal)
    (xb : S4000x512.Idx → EReal) (wb : S64x512.Idx → EReal) (bb : S1x64.Idx → EReal) (sb : S4000x1.Idx → EReal) (p : Fin 4000) (q : Fin 64) (i : S100000x64.Idx)
    (hx : ∀ k : Fin 512, xb (ix2 p k) = X (ix2 (i 0 : Fin 100000) k))
    (hw : ∀ k : Fin 512, wb (ix2 q k) = W (ix2 (i 1 : Fin 64) k))
    (hb : bb (ix2 (0 : Fin 1) q) = B (ix2 (0 : Fin 1) (i 1 : Fin 64)))
    (hs : sb (ix2 p (0 : Fin 1)) = S (ix2 (i 0 : Fin 100000) (0 : Fin 1))) :
    k0_pay2 (F := Ideal) xb wb bb sb (ix2 p q) = linScaledOf X W B S i := by
  refine (pay2_apply xb wb bb sb p q).trans ?_
  unfold linScaledOf
  rw [lin_entry X W B xb wb bb p q i hx hw hb, hs]

/-- Where a block's entry sits in its array, for the four row-blocked windows and the two whole-array windows. -/
theorem emb0 (t : Fin cfg0.N) (p : Fin 4000) (q : Fin 64) (k : Fin 512) :
    ((cfg0.win 0).blk t).view.emb (ix2 p k) = ix2 ((((cfg0.win 4).blk t).view.emb (ix2 p q)) 0 : Fin 100000) k := by
  obtain ⟨e0, e1, e2, e3, e4, e5, e6, e7, e8, e9, e10, e11⟩ := idx_facts t
  funext a; apply Fin.ext
  match a with
  | ⟨0, _⟩ => show win0_0.index t (0 : Fin 2) * 4000 + 1 * p.val = win0_4.index t (0 : Fin 2) * 4000 + 1 * p.val; omega
  | ⟨1, _⟩ => show win0_0.index t (1 : Fin 2) * 512 + 1 * k.val = k.val; omega
theorem emb1 (t : Fin cfg0.N) (p : Fin 4000) (q : Fin 64) (k : Fin 512) :
    ((cfg0.win 1).blk t).view.emb (ix2 q k) = ix2 ((((cfg0.win 4).blk t).view.emb (ix2 p q)) 1 : Fin 64) k := by
  obtain ⟨e0, e1, e2, e3, e4, e5, e6, e7, e8, e9, e10, e11⟩ := idx_facts t
  funext a; apply Fin.ext
  match a with
  | ⟨0, _⟩ => show win0_1.index t (0 : Fin 2) * 64 + 1 * q.val = win0_4.index t (1 : Fin 2) * 64 + 1 * q.val; omega
  | ⟨1, _⟩ => show win0_1.index t (1 : Fin 2) * 512 + 1 * k.val = k.val; omega
theorem emb2 (t : Fin cfg0.N) (p : Fin 4000) (q : Fin 64) :
    ((cfg0.win 2).blk t).view.emb (ix2 (0 : Fin 1) q) = ix2 (0 : Fin 1) ((((cfg0.win 4).blk t).view.emb (ix2 p q)) 1 : Fin 64) := by
  obtain ⟨e0, e1, e2, e3, e4, e5, e6, e7, e8, e9, e10, e11⟩ := idx_facts t
  funext a; apply Fin.ext
  match a with
  | ⟨0, _⟩ => show win0_2.index t (0 : Fin 2) * 1 + 1 * 0 = 0; omega
  | ⟨1, _⟩ => show win0_2.index t (1 : Fin 2) * 64 + 1 * q.val = win0_4.index t (1 : Fin 2) * 64 + 1 * q.val; omega
theorem emb3 (t : Fin cfg0.N) (p : Fin 4000) (q : Fin 64) :
    ((cfg0.win 3).blk t).view.emb (ix2 p (0 : Fin 1)) = ix2 ((((cfg0.win 4).blk t).view.emb (ix2 p q)) 0 : Fin 100000) (0 : Fin 1) := by
  obtain ⟨e0, e1, e2, e3, e4, e5, e6, e7, e8, e9, e10, e11⟩ := idx_facts t
  funext a; apply Fin.ext
  match a with
  | ⟨0, _⟩ => show win0_3.index t (0 : Fin 2) * 4000 + 1 * p.val = win0_4.index t (0 : Fin 2) * 4000 + 1 * p.val; omega
  | ⟨1, _⟩ => show win0_3.index t (1 : Fin 2) * 1 + 1 * 0 = 0; omega
theorem emb45 (t : Fin cfg0.N) (p : Fin 4000) (q : Fin 64) :
    ((cfg0.win 5).blk t).view.emb (ix2 p q) = ((cfg0.win 4).blk t).view.emb (ix2 p q) := by
  obtain ⟨e0, e1, e2, e3, e4, e5, e6, e7, e8, e9, e10, e11⟩ := idx_facts t
  funext a; apply Fin.ext
  match a with
  | ⟨0, _⟩ => show win0_5.index t (0 : Fin 2) * 4000 + 1 * p.val = win0_4.index t (0 : Fin 2) * 4000 + 1 * p.val; omega
  | ⟨1, _⟩ => show win0_5.index t (1 : Fin 2) * 64 + 1 * q.val = win0_4.index t (1 : Fin 2) * 64 + 1 * q.val; omega

/-- What point t writes back to the first output is block t of the linear layer of the arrays the kernel finds. -/
theorem flushed4_eq (c : Dev nD) (t : Fin cfg0.N) :
    (dat0 V c).flushed 4 t = ((cfg0.win 4).blk t).view.read (Elt Ideal) (linOf (V c main_arg0) (V c main_arg1) (V c main_v11)) := by
  show (cfg0.win 4).cut (grid0.coords t) ((dat0 V c).after 4 t) = _
  rw [after0_4]
  unfold out0_4
  rw [View.canon_unit_zero zeros]
  simp only [View.ld_unit_zero (S := S4000x512) zeros, View.ld_unit_zero (S := S64x512) zeros, View.ld_unit_zero (S := S1x64) zeros]
  funext j
  obtain ⟨p, q, rfl⟩ : ∃ (p : Fin 4000) (q : Fin 64), j = ix2 p q := ⟨j 0, j 1, eq_ix2 j⟩
  exact lin_entry (V c main_arg0) (V c main_arg1) (V c main_v11) (iblk0 V c 0 t) (iblk0 V c 1 t) (iblk0 V c 2 t) p q
    (((cfg0.win 4).blk t).view.emb (ix2 p q))
    (fun k => congrArg (V c main_arg0) (emb0 t p q k)) (fun k => congrArg (V c main_arg1) (emb1 t p q k)) (congrArg (V c main_v11) (emb2 t p q))

/-- What point t writes back to the second output is block t of the scaled linear layer. -/
theorem flushed5_eq (c : Dev nD) (t : Fin cfg0.N) :
    (dat0 V c).flushed 5 t = ((cfg0.win 5).blk t).view.read (Elt Ideal) (linScaledOf (V c main_arg0) (V c main_arg1) (V c main_v11) (V c main_v12)) := by
  show (cfg0.win 5).cut (grid0.coords t) ((dat0 V c).after 5 t) = _
  rw [after0_5]
  unfold out0_5
  rw [View.canon_unit_zero zeros]
  simp only [View.ld_unit_zero (S := S4000x512) zeros, View.ld_unit_zero (S := S64x512) zeros, View.ld_unit_zero (S := S1x64) zeros, View.ld_unit_zero (S := S4000x1) zeros]
  funext j
  obtain ⟨p, q, rfl⟩ : ∃ (p : Fin 4000) (q : Fin 64), j = ix2 p q := ⟨j 0, j 1, eq_ix2 j⟩
  show k0_pay2 (F := Ideal) (iblk0 V c 0 t) (iblk0 V c 1 t) (iblk0 V c 2 t) (iblk0 V c 3 t) (ix2 p q)
    = linScaledOf (V c main_arg0) (V c main_arg1) (V c main_v11) (V c main_v12) (((cfg0.win 5).blk t).view.emb (ix2 p q))
  rw [emb45 t p q]
  exact scaled_entry (V c main_arg0) (V c main_arg1) (V c main_v11) (V c main_v12) (iblk0 V c 0 t) (iblk0 V c 1 t) (iblk0 V c 2 t) (iblk0 V c 3 t) p q
    (((cfg0.win 4).blk t).view.emb (ix2 p q))
    (fun k => congrArg (V c main_arg0) (emb0 t p q k)) (fun k => congrArg (V c main_arg1) (emb1 t p q k)) (congrArg (V c main_v11) (emb2 t p q))
    (congrArg (V c main_v12) (emb3 t p q))

/-- Every one of the 25 row blocks is some point's, for both outputs. -/
theorem idx_onto4 : ∀ q0 : Fin 25, ∃ t : Fin cfg0.N, win0_4.index t = ![q0.val, 0] ∧ win0_5.index t = ![q0.val, 0] :=
  (by decide +kernel : ∀ q0 : Fin 25, ∃ t : Fin grid0.N, win0_4.index t = ![q0.val, 0] ∧ win0_5.index t = ![q0.val, 0])

/-- An index lies in point t's block of the first output iff each coordinate lies in the block's range on its axis. -/
theorem mem_blk4 (t : Fin cfg0.N) (i : S100000x64.Idx) :
    i ∈ ((cfg0.win 4).blk t).view.set ↔ ∀ a : Fin 2, win0_4.index t a * S4000x64.size a ≤ (i a).val ∧ (i a).val < win0_4.index t a * S4000x64.size a + S4000x64.size a := by
  show i ∈ ((View.whole main_v13_0).slice (win0_4.rect t)).set ↔ _
  rw [View.set_slice_whole, Rect.mem_set_unit]
  exact Iff.rfl

/-- The same for the second output. -/
theorem mem_blk5 (t : Fin cfg0.N) (i : S100000x64.Idx) :
    i ∈ ((cfg0.win 5).blk t).view.set ↔ ∀ a : Fin 2, win0_5.index t a * S4000x64.size a ≤ (i a).val ∧ (i a).val < win0_5.index t a * S4000x64.size a + S4000x64.size a := by
  show i ∈ ((View.whole main_v13_1).slice (win0_5.rect t)).set ↔ _
  rw [View.set_slice_whole, Rect.mem_set_unit]
  exact Iff.rfl

/-- Row r lies in the block of point r / 4000: the first output's blocks cover the array. -/
theorem cover4 (i : S100000x64.Idx) : ∃ t : Fin cfg0.N, (cfg0.win 4).flush t = true ∧ i ∈ ((cfg0.win 4).blk t).view.set := by
  have hi0 : (i 0).val < 100000 := (i 0).isLt
  have hi1 : (i 1).val < 64 := (i 1).isLt
  obtain ⟨t, ht, -⟩ := idx_onto4 ⟨(i 0).val / 4000, by omega⟩
  have q0 : win0_4.index t (0 : Fin 2) = (i 0).val / 4000 := congrFun ht 0
  have q1 : win0_4.index t (1 : Fin 2) = 0 := congrFun ht 1
  refine ⟨t, flush0_4 t, ?_⟩
  rw [mem_blk4]
  intro a
  match a with
  | ⟨0, _⟩ => show win0_4.index t (0 : Fin 2) * 4000 ≤ (i 0).val ∧ (i 0).val < win0_4.index t (0 : Fin 2) * 4000 + 4000; omega
  | ⟨1, _⟩ => show win0_4.index t (1 : Fin 2) * 64 ≤ (i 1).val ∧ (i 1).val < win0_4.index t (1 : Fin 2) * 64 + 64; omega

/-- The second output's blocks cover the array. -/
theorem cover5 (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  obtain ⟨t, -, ht⟩ := idx_onto4 ⟨(i 0).val / 4000, by omega⟩
  have q0 : win0_5.index t (0 : Fin 2) = (i 0).val / 4000 := congrFun ht 0
  have q1 : win0_5.index t (1 : Fin 2) = 0 := congrFun ht 1
  refine ⟨t, flush0_5 t, ?_⟩
  rw [mem_blk5]
  intro a
  match a with
  | ⟨0, _⟩ => show win0_5.index t (0 : Fin 2) * 4000 ≤ (i 0).val ∧ (i 0).val < win0_5.index t (0 : Fin 2) * 4000 + 4000; omega
  | ⟨1, _⟩ => show win0_5.index t (1 : Fin 2) * 64 ≤ (i 1).val ∧ (i 1).val < win0_5.index t (1 : Fin 2) * 64 + 64; omega

/-- The projected features after the projection kernel's grid. -/
theorem final4 (c : Dev nD) : (dat0 V c).arrAt 4 cfg0.N = linOf (V c main_arg0) (V c main_arg1) (V c main_v11) :=
  (dat0 V c).arrAt_eq_of_cover 4 (linOf (V c main_arg0) (V c main_arg1) (V c main_v11)) (fun t _ => flushed4_eq V c t) cover4

/-- The scaled projected features after the projection kernel's grid. -/
theorem final5 (c : Dev nD) : (dat0 V c).arrAt 5 cfg0.N = linScaledOf (V c main_arg0) (V c main_arg1) (V c main_v11) (V c main_v12) :=
  (dat0 V c).arrAt_eq_of_cover 5 (linScaledOf (V c main_arg0) (V c main_arg1) (V c main_v11) (V c main_v12)) (fun t _ => flushed5_eq V c t) cover5

end Cert.KernelIdeal.LinArray

end
-- ==== Proof.BlendArray.lean ====
/-
  The blend kernel's output array after its grid of 50 points, as ONE function of the three arrays the kernel
  reads.  Point t works on rows 2000 t … 2000 t + 1999: it reads those rows of the aggregated messages and of
  the projected features, and the same rows of the one-column array of destination-side scales, and writes
  back the blend of the three.  Each written block is the restriction of one whole-array function
  (`blendOf`), and the 50 blocks tile the 100000 rows, so the array ends holding that function.
-/
import proofs.«118765_j29506425323819_2_alg».proof.Proof.Gen.KernelIdeal.Frame
import proofs.«118765_j29506425323819_2_alg».proof.Proof.Payloads
import Idealize.ShloMosaic.Lib.Pipeline.Value
import Idealize.ShloMosaic.Lib.ValueIdx

set_option maxRecDepth 16384

noncomputable section

namespace Cert.KernelIdeal.BlendArray

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Payloads

-- The contents of every buffer when the blend kernel is entered: a parameter.
variable (V : (c : Dev nD) → (b : Ref sig .tc) → Buf (Elt Ideal) ((c : Thread nD τ).loc b))

/-- The offsets of a load or store of a whole block. -/
theorem zeros : (![0, 0] : Fin 2 → Nat) = fun _ => 0 := funext fun a => by fin_cases a <;> rfl

/-- The blend as a function of whole arrays: entry (n, q) is (first literal * a[n, q]) * d[n, 0] + second literal * h[n, q]. -/
def blendOf (a : S100000x64.Idx → EReal) (d : S100000x1.Idx → EReal) (h : S100000x64.Idx → EReal) : S100000x64.Idx → EReal :=
  fun i => Ideal.ofBits .f32 0x3F4CCCCD#32 * a i * d (ix2 (i 0 : Fin 100000) (0 : Fin 1)) + Ideal.ofBits .f32 0x3E4CCCCD#32 * h i

/-- At point t every window's block is block t along the rows and block 0 along the columns. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- What point t writes back is block t of the blend of the arrays the kernel finds. -/
theorem flushed_eq (c : Dev nD) (t : Fin cfg1.N) :
    (dat1 V c).flushed 3 t = ((cfg1.win 3).blk t).view.read (Elt Ideal) (blendOf (V c main_v23) (V c main_v24) (V c main_v13_0)) := by
  show (cfg1.win 3).cut (grid1.coords t) ((dat1 V c).after 3 t) = _
  rw [after1_3]
  unfold out1_3
  rw [View.canon_unit_zero zeros]
  simp only [View.ld_unit_zero (S := S2000x64) zeros, View.ld_unit_zero (S := S2000x1) zeros]
  obtain ⟨e0, e1, e2, e3, e4, e5, e6, e7⟩ := idx_facts t
  funext j
  obtain ⟨p, q, rfl⟩ : ∃ (p : Fin 2000) (q : Fin 64), j = ix2 p q := ⟨j 0, j 1, eq_ix2 j⟩
  refine (blend_apply _ _ _ p q).trans ?_
  show Ideal.ofBits .f32 0x3F4CCCCD#32 * V c main_v23 (((cfg1.win 0).blk t).view.emb (ix2 p q)) * V c main_v24 (((cfg1.win 1).blk t).view.emb (ix2 p 0))
      + Ideal.ofBits .f32 0x3E4CCCCD#32 * V c main_v13_0 (((cfg1.win 2).blk t).view.emb (ix2 p q))
    = blendOf (V c main_v23) (V c main_v24) (V c main_v13_0) (((cfg1.win 3).blk t).view.emb (ix2 p q))
  unfold blendOf
  have h0 : ((cfg1.win 0).blk t).view.emb (ix2 p q) = ((cfg1.win 3).blk t).view.emb (ix2 p q) := by
    funext a; apply Fin.ext
    match a with
    | ⟨0, _⟩ => show win1_0.index t (0 : Fin 2) * 2000 + 1 * p.val = win1_3.index t (0 : Fin 2) * 2000 + 1 * p.val; omega
    | ⟨1, _⟩ => show win1_0.index t (1 : Fin 2) * 64 + 1 * q.val = win1_3.index t (1 : Fin 2) * 64 + 1 * q.val; omega
  have h1 : ((cfg1.win 1).blk t).view.emb (ix2 p 0) = ix2 ((((cfg1.win 3).blk t).view.emb (ix2 p q)) 0 : Fin 100000) (0 : Fin 1) := by
    funext a; apply Fin.ext
    match a with
    | ⟨0, _⟩ => show win1_1.index t (0 : Fin 2) * 2000 + 1 * p.val = win1_3.index t (0 : Fin 2) * 2000 + 1 * p.val; omega
    | ⟨1, _⟩ => show win1_1.index t (1 : Fin 2) * 1 + 1 * 0 = 0; omega
  have h2 : ((cfg1.win 2).blk t).view.emb (ix2 p q) = ((cfg1.win 3).blk t).view.emb (ix2 p q) := by
    funext a; apply Fin.ext
    match a with
    | ⟨0, _⟩ => show win1_2.index t (0 : Fin 2) * 2000 + 1 * p.val = win1_3.index t (0 : Fin 2) * 2000 + 1 * p.val; omega
    | ⟨1, _⟩ => show win1_2.index t (1 : Fin 2) * 64 + 1 * q.val = win1_3.index t (1 : Fin 2) * 64 + 1 * q.val; omega
  rw [h0, h1, h2]
  rfl

/-- Every one of the 50 row blocks is some point's. -/
theorem idx_onto : ∀ q0 : Fin 50, ∃ t : Fin cfg1.N, win1_3.index t = ![q0.val, 0] :=
  (by decide +kernel : ∀ q0 : Fin 50, ∃ t : Fin grid1.N, win1_3.index t = ![q0.val, 0])

/-- An index lies in point t's output block iff each coordinate lies in the block's range on its axis. -/
theorem mem_blk (t : Fin cfg1.N) (i : S100000x64.Idx) :
    i ∈ ((cfg1.win 3).blk t).view.set ↔ ∀ a : Fin 2, win1_3.index t a * S2000x64.size a ≤ (i a).val ∧ (i a).val < win1_3.index t a * S2000x64.size a + S2000x64.size a := by
  show i ∈ ((View.whole main_v25).slice (win1_3.rect t)).set ↔ _
  rw [View.set_slice_whole, Rect.mem_set_unit]
  exact Iff.rfl

/-- Row r lies in the block of point r / 2000: the output blocks cover the array. -/
theorem cover (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, ht⟩ := idx_onto ⟨(i 0).val / 2000, by omega⟩
  have q0 : win1_3.index t (0 : Fin 2) = (i 0).val / 2000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 64 ≤ (i 1).val ∧ (i 1).val < win1_3.index t (1 : Fin 2) * 64 + 64; omega

/-- The blend kernel's output array after its grid. -/
theorem final (c : Dev nD) : (dat1 V c).arrAt 3 cfg1.N = blendOf (V c main_v23) (V c main_v24) (V c main_v13_0) :=
  (dat1 V c).arrAt_eq_of_cover 3 (blendOf (V c main_v23) (V c main_v24) (V c main_v13_0)) (fun t _ => flushed_eq V c t) cover

end Cert.KernelIdeal.BlendArray

end
-- ==== Proof.Spec.lean ====
/-
  The mathematics both programs compute, as functions of whole arrays read index by index over the
  extended reals.  Rows are graph nodes (100000 of them), columns are the 64 output channels, the
  contraction runs over the 512 input features.

  * `lin x w b` is the linear layer: entry (n, q) is the sum over k of x[n, k] * w[q, k], plus b[q].
  * `linScaled x w b s` scales row n of `lin x w b` by s[n] (the source-side degree normalisation).
  * `blend a d h` is the teleport blend: entry (n, q) is (4/5-literal * a[n, q]) * d[n] + (1/5-literal) * h[n, q],
    the two literals kept as the binary32 words the programs carry (the same words on both sides, so they
    are never evaluated).
-/
import Idealize.ShloMosaic.PureOps.Ideal
import Idealize.ShloMosaic.Lib.ValueIdx

noncomputable section

namespace Cert.Spec

open Idealize.ShloMosaic Idealize.ShloMosaic.ValueIdx
open scoped BigOperators

/-- Node features: 100000 rows of 512. -/
abbrev SX : Shape := ⟨2, ![100000, 512]⟩
/-- The weight matrix: 64 rows of 512. -/
abbrev SW : Shape := ⟨2, ![64, 512]⟩
/-- A per-channel vector. -/
abbrev SB : Shape := ⟨1, ![64]⟩
/-- A per-node vector. -/
abbrev SN : Shape := ⟨1, ![100000]⟩
/-- Node outputs: 100000 rows of 64. -/
abbrev SO : Shape := ⟨2, ![100000, 64]⟩

/-- The literal both programs multiply the aggregated messages by. -/
def cAgg : EReal := Ideal.ofBits .f32 0x3F4CCCCD#32
/-- The literal both programs multiply the projected features by. -/
def cSelf : EReal := Ideal.ofBits .f32 0x3E4CCCCD#32

/-- The linear layer, entry by entry. -/
def lin (x : SX.Idx → EReal) (w : SW.Idx → EReal) (b : SB.Idx → EReal) : SO.Idx → EReal :=
  fun i => (∑ k : Fin 512, x (ix2 (i 0 : Fin 100000) k) * w (ix2 (i 1 : Fin 64) k)) + b (ix1 (i 1 : Fin 64))

/-- The linear layer with row n scaled by s[n]. -/
def linScaled (x : SX.Idx → EReal) (w : SW.Idx → EReal) (b : SB.Idx → EReal) (s : SN.Idx → EReal) : SO.Idx → EReal :=
  fun i => lin x w b i * s (ix1 (i 0 : Fin 100000))

/-- The blend of the aggregated messages a (row n scaled by d[n]) with the projected features h. -/
def blend (a : SO.Idx → EReal) (d : SN.Idx → EReal) (h : SO.Idx → EReal) : SO.Idx → EReal :=
  fun i => cAgg * a i * d (ix1 (i 0 : Fin 100000)) + cSelf * h i

end Cert.Spec

end
-- ==== Proof.ToSpec.lean ====
/-
  The kernels' whole-array functions are the specification's.  The kernels read the bias as a one-row array and the
  two degree scales as one-column arrays; reshaping a vector of n entries to one row or one column keeps entry k at
  row-major position k, so reading the reshaped array at (0, q), or at (n, 0), reads the vector at q, or at n.
-/
import proofs.«118765_j29506425323819_2_alg».proof.Proof.LinArray
import proofs.«118765_j29506425323819_2_alg».proof.Proof.BlendArray
import proofs.«118765_j29506425323819_2_alg».proof.Proof.Spec

noncomputable section

namespace Cert.KernelIdeal.ToSpec

open Idealize.ShloMosaic Idealize.ShloMosaic.ValueIdx
open Cert.KernelIdeal Cert.KernelIdeal.LinArray Cert.KernelIdeal.BlendArray
open scoped BigOperators

/-- A vector of 100000 entries reshaped to one column, read at (n, 0), is the vector at n. -/
theorem col_apply {α : Type} (v : S100000.Idx → α) (h : S100000.ShapeCasts S100000x1) (n : Fin 100000) :
    shapeCast S100000x1 v h (ix2 n (0 : Fin 1)) = v (ix1 n) :=
  shapeCast_apply v h (ix2 n (0 : Fin 1)) (ix1 n) (by
    rw [Shape.rowMajor_val_one, Shape.rowMajor_val_two]
    show n.val = n.val * 1 + 0
    omega)

/-- A vector of 64 entries reshaped to one row, read at (0, q), is the vector at q. -/
theorem row_apply {α : Type} (v : S64.Idx → α) (h : S64.ShapeCasts S1x64) (q : Fin 64) :
    shapeCast S1x64 v h (ix2 (0 : Fin 1) q) = v (ix1 q) :=
  shapeCast_apply v h (ix2 (0 : Fin 1) q) (ix1 q) (by
    rw [Shape.rowMajor_val_one, Shape.rowMajor_val_two]
    show q.val = 0 * 64 + q.val
    omega)

/-- The projection kernel's first output is the linear layer. -/
theorem lin_spec (X : S100000x512.Idx → EReal) (W : S64x512.Idx → EReal) (b : S64.Idx → EReal) (h : S64.ShapeCasts S1x64) :
    linOf X W (fun i => shapeCast S1x64 b h i) = Cert.Spec.lin X W b := by
  funext i
  obtain ⟨n, q, rfl⟩ : ∃ (n : Fin 100000) (q : Fin 64), i = ix2 n q := ⟨i 0, i 1, eq_ix2 i⟩
  show (∑ k : Fin 512, X (ix2 n k) * W (ix2 q k)) + shapeCast S1x64 b h (ix2 (0 : Fin 1) q)
    = (∑ k : Fin 512, X (ix2 n k) * W (ix2 q k)) + b (ix1 q)
  rw [row_apply]

/-- The projection kernel's second output is the linear layer with scaled rows. -/
theorem linScaled_spec (X : S100000x512.Idx → EReal) (W : S64x512.Idx → EReal) (b : S64.Idx → EReal) (h : S64.ShapeCasts S1x64)
    (s : S100000.Idx → EReal) (hs : S100000.ShapeCasts S100000x1) :
    linScaledOf X W (fun i => shapeCast S1x64 b h i) (fun i => shapeCast S100000x1 s hs i) = Cert.Spec.linScaled X W b s := by
  funext i
  obtain ⟨n, q, rfl⟩ : ∃ (n : Fin 100000) (q : Fin 64), i = ix2 n q := ⟨i 0, i 1, eq_ix2 i⟩
  show linOf X W (fun i => shapeCast S1x64 b h i) (ix2 n q) * shapeCast S100000x1 s hs (ix2 n (0 : Fin 1))
    = Cert.Spec.lin X W b (ix2 n q) * s (ix1 n)
  rw [lin_spec, col_apply]

/-- The blend kernel's output is the specification's blend. -/
theorem blend_spec (a : S100000x64.Idx → EReal) (d : S100000.Idx → EReal) (hd : S100000.ShapeCasts S100000x1) (g : S100000x64.Idx → EReal) :
    blendOf a (fun i => shapeCast S100000x1 d hd i) g = Cert.Spec.blend a d g := by
  funext i
  obtain ⟨n, q, rfl⟩ : ∃ (n : Fin 100000) (q : Fin 64), i = ix2 n q := ⟨i 0, i 1, eq_ix2 i⟩
  show Ideal.ofBits .f32 0x3F4CCCCD#32 * a (ix2 n q) * shapeCast S100000x1 d hd (ix2 n (0 : Fin 1)) + Ideal.ofBits .f32 0x3E4CCCCD#32 * g (ix2 n q)
    = Cert.Spec.cAgg * a (ix2 n q) * d (ix1 n) + Cert.Spec.cSelf * g (ix2 n q)
  rw [col_apply]
  rfl

end Cert.KernelIdeal.ToSpec

end
-- ==== Proof.KernelValue.lean ====
/-
  The idealized kernel's result, in the specification's terms.  The blend kernel's output array is the blend of
  (i) the aggregated messages — the projection kernel's scaled output gathered along the edges' sources and summed
  into their destinations —, (ii) the destination-side degree scale and (iii) the projection kernel's plain output.
  Each of the projection kernel's outputs is the linear layer of the launch memory's arrays (rows scaled by the
  source-side degree scale in the second), because the host stretches before it leave the argument arrays as
  launched and hand it the bias and the scale reshaped.
-/
import proofs.«118765_j29506425323819_2_alg».proof.Proof.HostSide
import proofs.«118765_j29506425323819_2_alg».proof.Proof.ToSpec

set_option maxRecDepth 16384

noncomputable section

namespace Cert.KernelIdeal.KernelValue

open Idealize.ShloMosaic Idealize.ShloMosaic.TcCoe Idealize.SL.Sem
open Cert.KernelIdeal Cert.KernelIdeal.Gen
open Cert.KernelIdeal.HostSide Cert.KernelIdeal.LinArray Cert.KernelIdeal.BlendArray Cert.KernelIdeal.ToSpec

variable (m : (ℓ : Loc nD τ sig) → Buf (Elt Ideal) ℓ) (ρ : Dev nD → PrngReg)

/-- After the projection kernel, its first output holds the linear layer of the launched arrays. -/
theorem features_eq (c : Dev nD) : W6 m ρ c (Proc.devRef .tc main_v13_0)
    = Cert.Spec.lin (m ((c.tc : Thread nD τ).loc main_arg0)) (m ((c.tc : Thread nD τ).loc main_arg1)) (m ((c.tc : Thread nD τ).loc main_arg2)) := by
  refine (W6_arr m ρ c 4).trans ?_
  refine (LinArray.final4 (V5 m ρ) c).trans ?_
  show linOf (W5 m ρ c (Proc.devRef .tc main_arg0)) (W5 m ρ c (Proc.devRef .tc main_arg1)) (W5 m ρ c (Proc.devRef .tc main_v11)) = _
  rw [entry_features, entry_weights, entry_bias]
  exact lin_spec _ _ _ _

/-- After the projection kernel, its second output holds the linear layer with row n scaled by the source-side
    degree scale at n. -/
theorem scaled_eq (c : Dev nD) : W6 m ρ c (Proc.devRef .tc main_v13_1)
    = Cert.Spec.linScaled (m ((c.tc : Thread nD τ).loc main_arg0)) (m ((c.tc : Thread nD τ).loc main_arg1)) (m ((c.tc : Thread nD τ).loc main_arg2))
        (degScale (m ((c.tc : Thread nD τ).loc main_arg3))) := by
  refine (W6_arr m ρ c 5).trans ?_
  refine (LinArray.final5 (V5 m ρ) c).trans ?_
  show linScaledOf (W5 m ρ c (Proc.devRef .tc main_arg0)) (W5 m ρ c (Proc.devRef .tc main_arg1)) (W5 m ρ c (Proc.devRef .tc main_v11))
      (W5 m ρ c (Proc.devRef .tc main_v12)) = _
  rw [entry_features, entry_weights, entry_bias, entry_scale]
  exact linScaled_spec _ _ _ _ _ _

/-- The result buffer at the last boundary. -/
theorem result_eq (c : Dev nD) : W8 m ρ c (Proc.devRef .tc main_v25)
    = Cert.Spec.blend
        (aggregate (Cert.Spec.linScaled (m ((c.tc : Thread nD τ).loc main_arg0)) (m ((c.tc : Thread nD τ).loc main_arg1))
            (m ((c.tc : Thread nD τ).loc main_arg2)) (degScale (m ((c.tc : Thread nD τ).loc main_arg3))))
          (m ((c.tc : Thread nD τ).loc main_arg3)) (m ((c.tc : Thread nD τ).loc main_arg4)))
        (degScale (m ((c.tc : Thread nD τ).loc main_arg4)))
        (Cert.Spec.lin (m ((c.tc : Thread nD τ).loc main_arg0)) (m ((c.tc : Thread nD τ).loc main_arg1)) (m ((c.tc : Thread nD τ).loc main_arg2))) := by
  refine (W8_arr m ρ c 3).trans ?_
  refine (BlendArray.final (V7 m ρ) c).trans ?_
  show blendOf (W7 m ρ c (Proc.devRef .tc main_v23)) (W7 m ρ c (Proc.devRef .tc main_v24)) (W7 m ρ c (Proc.devRef .tc main_v13_0)) = _
  rw [second_aggregate, second_scale, second_features, scaled_eq, features_eq]
  exact blend_spec _ _ _ _

end Cert.KernelIdeal.KernelValue

end
-- ==== Proof.RefSide.lean ====
/-
  The reference program's three stages as the specification's functions, index by index over the extended reals:
  the linear layer, the linear layer with rows scaled by a per-node vector, and the final blend.  Each stage is
  read one operation at a time; the index maps the layout operations compose are the specification's coordinate
  constructors, and the only algebraic law used is associativity of multiplication on the extended reals.
-/
import proofs.«118765_j29506425323819_2_alg».proof.Proof.Gen.ReferenceIdeal.Read
import proofs.«118765_j29506425323819_2_alg».proof.Proof.Spec

noncomputable section

namespace Cert.ReferenceIdeal.RefSide

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx
open scoped BigOperators

/-! ## The composed index maps are the coordinate constructors -/

/-- The left operand of the contraction is read at (row of the result, contraction coordinate). -/
theorem lidx_eq (i : S100000x64.Idx) (k : Fin 512) :
    lidx_main_v1 i k = ix2 (i 0 : Fin 100000) k :=
  funext fun a => Fin.ext (by match a with | ⟨0, _⟩ => rfl | ⟨1, _⟩ => rfl)

/-- The transposed weight read at (contraction coordinate, channel) is the weight at (channel, contraction coordinate). -/
theorem ridx_eq (i : S100000x64.Idx) (k : Fin 512) :
    idx_main_v0 (ridx_main_v1 i k) = ix2 (i 1 : Fin 64) k :=
  funext fun a => Fin.ext (by match a with | ⟨0, _⟩ => rfl | ⟨1, _⟩ => rfl)

/-- The bias broadcast over the rows is read at the channel. -/
theorem bidx_eq (i : S100000x64.Idx) :
    idx_main_v2 (idx_main_v3 i) = ix1 (i 1 : Fin 64) :=
  funext fun a => Fin.ext (by match a with | ⟨0, _⟩ => rfl)

/-- A per-node vector broadcast along the channels (the source-side scale) is read at the row. -/
theorem sidx_eq (i : S100000x64.Idx) :
    idx_main_v16 (idx_main_v17 i) = ix1 (i 0 : Fin 100000) :=
  funext fun a => Fin.ext (by match a with | ⟨0, _⟩ => rfl)

/-- A per-node vector broadcast along the channels (the destination-side scale) is read at the row. -/
theorem didx_eq (i : S100000x64.Idx) :
    idx_main_v29 (idx_main_v30 i) = ix1 (i 0 : Fin 100000) :=
  funext fun a => Fin.ext (by match a with | ⟨0, _⟩ => rfl)

/-! ## The three stages -/

/-- The linear layer: entry (n, q) is the sum over k of x[n, k] * w[q, k], plus b[q]. -/
theorem lin_eq (x0 : (⟨S100000x512, .f32⟩ : BufTy).Contents (Elt Ideal))
    (x1 : (⟨S64x512, .f32⟩ : BufTy).Contents (Elt Ideal))
    (x2 : (⟨S64, .f32⟩ : BufTy).Contents (Elt Ideal)) :
    val_main_v4 (F := Ideal) x0 x1 x2 = Cert.Spec.lin x0 x1 x2 := by
  funext i
  rw [val_main_v4_apply, val_main_v1_apply, val_main_v3_apply, val_main_v2_apply, bidx_eq]
  show (∑ k : Fin 512, x0 (lidx_main_v1 i k) * val_main_v0 (F := Ideal) x1 (ridx_main_v1 i k))
      + x2 (ix1 (i 1 : Fin 64))
    = (∑ k : Fin 512, x0 (ix2 (i 0 : Fin 100000) k) * x1 (ix2 (i 1 : Fin 64) k)) + x2 (ix1 (i 1 : Fin 64))
  refine congrArg (· + x2 (ix1 (i 1 : Fin 64))) (Finset.sum_congr rfl fun k _ => ?_)
  rw [val_main_v0_apply, lidx_eq, ridx_eq]
  rfl

/-- The linear layer with row n scaled by the source-side vector at n. -/
theorem linScaled_eq (x0 : (⟨S100000x512, .f32⟩ : BufTy).Contents (Elt Ideal))
    (x1 : (⟨S64x512, .f32⟩ : BufTy).Contents (Elt Ideal))
    (x2 : (⟨S64, .f32⟩ : BufTy).Contents (Elt Ideal))
    (x3 : (⟨S3200000, .i32⟩ : BufTy).Contents (Elt Ideal)) :
    val_main_v18 (F := Ideal) x0 x1 x2 x3
      = Cert.Spec.linScaled x0 x1 x2 (val_main_v13 (F := Ideal) x3) := by
  funext i
  rw [val_main_v18_apply, val_main_v17_apply, val_main_v16_apply, sidx_eq, lin_eq]
  rfl

/-- The blend: the reference multiplies the literal by (aggregate * scale); the specification multiplies
    (literal * aggregate) by the scale.  Multiplication on the extended reals is associative. -/
theorem result_eq (x0 : (⟨S100000x512, .f32⟩ : BufTy).Contents (Elt Ideal))
    (x1 : (⟨S64x512, .f32⟩ : BufTy).Contents (Elt Ideal))
    (x2 : (⟨S64, .f32⟩ : BufTy).Contents (Elt Ideal))
    (x3 x4 : (⟨S3200000, .i32⟩ : BufTy).Contents (Elt Ideal)) :
    val_main_v36 (F := Ideal) x0 x1 x2 x3 x4
      = Cert.Spec.blend (val_main_v28 (F := Ideal) x0 x1 x2 x3 x4) (val_main_v15 (F := Ideal) x4)
          (val_main_v4 (F := Ideal) x0 x1 x2) := by
  funext i
  rw [val_main_v36_apply, val_main_v33_apply, val_main_v35_apply, val_main_v31_apply, val_main_v32_apply,
    val_main_v34_apply, val_main_v30_apply, val_main_v29_apply, val_main_cst_6_apply, val_main_cst_7_apply,
    didx_eq]
  show Cert.Spec.cAgg * (val_main_v28 (F := Ideal) x0 x1 x2 x3 x4 i * val_main_v15 (F := Ideal) x4 (ix1 (i 0 : Fin 100000)))
      + Cert.Spec.cSelf * val_main_v4 (F := Ideal) x0 x1 x2 i
    = Cert.Spec.cAgg * val_main_v28 (F := Ideal) x0 x1 x2 x3 x4 i * val_main_v15 (F := Ideal) x4 (ix1 (i 0 : Fin 100000))
      + Cert.Spec.cSelf * val_main_v4 (F := Ideal) x0 x1 x2 i
  rw [mul_assoc]

end Cert.ReferenceIdeal.RefSide

end
-- ==== Proof.Bridge.lean ====
/-
  The two programs' results are one array.  Both compute the degree scales, the gather index and the aggregation
  with the same host operations — the scatter that counts an index array's entries, the clamp, the inverse square
  root; the gather along the sources and the sum into the destinations — applied to the same arrays; what differs
  is only how the projected features entering the gather were produced (a kernel on one side, a matrix product on
  the other: both are the specification's scaled linear layer) and how the final blend groups its product.
-/
import proofs.«118765_j29506425323819_2_alg».proof.Proof.KernelValue
import proofs.«118765_j29506425323819_2_alg».proof.Proof.RefSide

noncomputable section

namespace Cert.Proof.Bridge

open Idealize.ShloMosaic
open Cert.KernelIdeal.HostSide Cert.ReferenceIdeal.Read

section
set_option maxHeartbeats 100000

/-- The source-side degree scale is the reference's. -/
theorem degScale_src (x3 : (⟨Cert.ReferenceIdeal.S3200000, .i32⟩ : BufTy).Contents (Elt Ideal)) :
    degScale x3 = val_main_v13 (F := Ideal) x3 := by
  unfold degScale val_main_v13 val_main_v12 val_main_call0_v1 val_main_call0_v0 val_main_cst_2 val_main_v8 val_main_v6 val_main_v7 val_main_v5
    val_main_cst_0 val_main_cst
  rfl

/-- The destination-side degree scale is the reference's. -/
theorem degScale_dst (x4 : (⟨Cert.ReferenceIdeal.S3200000, .i32⟩ : BufTy).Contents (Elt Ideal)) :
    degScale x4 = val_main_v15 (F := Ideal) x4 := by
  unfold degScale val_main_v15 val_main_v14 val_main_call1_v1 val_main_call1_v0 val_main_cst_3 val_main_v11 val_main_v9 val_main_v10 val_main_v5
    val_main_cst_1 val_main_cst
  rfl

/-- The aggregation of any array of rows is the reference's gather followed by its scatter. -/
theorem aggregate_eq (hs : (⟨Cert.ReferenceIdeal.S100000x64, .f32⟩ : BufTy).Contents (Elt Ideal))
    (x3 x4 : (⟨Cert.ReferenceIdeal.S3200000, .i32⟩ : BufTy).Contents (Elt Ideal)) :
    aggregate hs x3 x4
      = Host.scatterAdd (F := Ideal) (φ := .f32) Cert.ReferenceIdeal.scatter_S100000x64_S3200000x1_S3200000x64_1_0_0_1 (val_main_v26 (F := Ideal)) (val_main_v27 (F := Ideal) x4)
          (Host.gather Cert.ReferenceIdeal.gather_S100000x64_S3200000x1_S3200000x64_1_0_n_n_0_1_164 hs (val_main_v24 (F := Ideal) x3)) := by
  unfold aggregate fromEnd val_main_v26 val_main_cst_5 val_main_v27 val_main_v24 val_main_v23 val_main_v20 val_main_v22 val_main_v19 val_main_v21
    val_main_c val_main_c_4
  rfl

end

/-- The idealized kernel's result array is the idealized reference's. -/
theorem results_agree (x0 : (⟨Cert.ReferenceIdeal.S100000x512, .f32⟩ : BufTy).Contents (Elt Ideal))
    (x1 : (⟨Cert.ReferenceIdeal.S64x512, .f32⟩ : BufTy).Contents (Elt Ideal))
    (x2 : (⟨Cert.ReferenceIdeal.S64, .f32⟩ : BufTy).Contents (Elt Ideal))
    (x3 x4 : (⟨Cert.ReferenceIdeal.S3200000, .i32⟩ : BufTy).Contents (Elt Ideal)) :
    val_main_v36 (F := Ideal) x0 x1 x2 x3 x4
      = Cert.Spec.blend (aggregate (Cert.Spec.linScaled x0 x1 x2 (degScale x3)) x3 x4) (degScale x4) (Cert.Spec.lin x0 x1 x2) := by
  have hagg : val_main_v28 (F := Ideal) x0 x1 x2 x3 x4 = aggregate (Cert.Spec.linScaled x0 x1 x2 (degScale x3)) x3 x4 := by
    unfold val_main_v28 val_main_v25
    rw [Cert.ReferenceIdeal.RefSide.linScaled_eq, ← degScale_src, aggregate_eq]
  rw [Cert.ReferenceIdeal.RefSide.result_eq, Cert.ReferenceIdeal.RefSide.lin_eq, hagg, ← degScale_dst]

end Cert.Proof.Bridge

end
-- ==== Proof.lean ====
/-
  One propagation step of a graph convolution with a teleport term, over 100000 nodes, 3200000 edges, 512 input
  features and 64 output channels: h0 = x Wᵀ + b; every edge (s → d) carries row s of h0 scaled by the source-side
  degree scale; node d sums what its incoming edges carry and scales the sum by the destination-side degree scale;
  the result is (4/5-literal) * that + (1/5-literal) * h0.  The degree scale of a node is the inverse square root of
  its degree clamped below by one.

  The kernel program computes h0 and its scaled copy in a first kernel over 25 blocks of 4000 rows, gathers and sums
  on the host, and blends in a second kernel over 50 blocks of 2000 rows; the reference does everything with host
  operations.  Read over the extended reals the two results are the same array: narrowing the matrix product's
  operands is the identity, a product accumulated into zero is the plain sum, the host operations between the
  kernels are literally the reference's, and the one algebraic difference — the kernel multiplies (literal * sum) by
  the scale where the reference multiplies the literal by (sum * scale) — is associativity of multiplication, which
  holds on the extended reals without any finiteness assumption.  So the precondition is not used.

  The frames of the two kernel programs are the generated ones; the reference's frame is its generated run with the
  result dropped; no rewrite was applied when the kernel was idealized, so that conjunct is trivial.
-/
import proofs.«118765_j29506425323819_2_alg».proof.Defs
import proofs.«118765_j29506425323819_2_alg».proof.Proof.Gen.Kernel
import proofs.«118765_j29506425323819_2_alg».proof.Proof.Gen.Kernel.Skeleton
import proofs.«118765_j29506425323819_2_alg».proof.Proof.Gen.Kernel.Launch
import proofs.«118765_j29506425323819_2_alg».proof.Proof.Gen.Kernel.Points
import proofs.«118765_j29506425323819_2_alg».proof.Proof.Gen.Kernel.Frame
import proofs.«118765_j29506425323819_2_alg».proof.Proof.Gen.KernelIdeal
import proofs.«118765_j29506425323819_2_alg».proof.Proof.Gen.KernelIdeal.Skeleton
import proofs.«118765_j29506425323819_2_alg».proof.Proof.Gen.KernelIdeal.Launch
import proofs.«118765_j29506425323819_2_alg».proof.Proof.Gen.KernelIdeal.Points
import proofs.«118765_j29506425323819_2_alg».proof.Proof.Gen.KernelIdeal.Frame
import proofs.«118765_j29506425323819_2_alg».proof.Proof.Gen.ReferenceIdeal
import proofs.«118765_j29506425323819_2_alg».proof.Proof.Gen.ReferenceIdeal.Run
import proofs.«118765_j29506425323819_2_alg».proof.Proof.Gen.ReferenceIdeal.Read
import proofs.«118765_j29506425323819_2_alg».proof.Proof.Gen.Pre_finite_inputs
import proofs.«118765_j29506425323819_2_alg».proof.Proof.KernelRun
import proofs.«118765_j29506425323819_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the specification's blend of the aggregated messages, the destination-side
    degree scale and the linear layer, of the same argument arrays. -/
theorem algebraic : Cert.algebraic_KernelIdeal_ReferenceIdeal := by
  intro m ρ m' ρ' _ hagree
  refine ⟨fun c => Cert.KernelIdeal.Gen.W8 m ρ c (Proc.devRef .tc Cert.KernelIdeal.main_v25), ?_, ?_⟩
  · exact Cert.KernelIdeal.Whole.run_result m ρ
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2]
    refine (Cert.ReferenceIdeal.Read.val_main_v36_eq _ _ _ _ _).trans ?_
    refine (Cert.Proof.Bridge.results_agree _ _ _ _ _).trans ?_
    exact (Cert.KernelIdeal.KernelValue.result_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
